-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096 : Shape := ⟨2, ![4, 4096]⟩
abbrev S256x2048 : Shape := ⟨2, ![256, 2048]⟩
abbrev S128000x8 : Shape := ⟨2, ![128000, 8]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S4x4096x2048 .f32) (main_arg1 : IVec S4x4096 32) (main_arg2 : FVec F S256x2048 .f32) (main_arg3 : IVec S128000x8 32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S256x2048 .f32 := Host.absf main_arg2
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  main_v8
-- ==== Kernel.lean ====
abbrev S4x4096x2048 : Shape := ⟨3, ![4, 4096, 2048]⟩
abbrev S4x4096 : Shape := ⟨2, ![4, 4096]⟩
abbrev S256x2048 : Shape := ⟨2, ![256, 2048]⟩
abbrev S128000x8 : Shape := ⟨2, ![128000, 8]⟩
abbrev S16384x2048 : Shape := ⟨2, ![16384, 2048]⟩
abbrev S16384 : Shape := ⟨1, ![16384]⟩
abbrev S2048x256 : Shape := ⟨2, ![2048, 256]⟩
abbrev S16384x256 : Shape := ⟨2, ![16384, 256]⟩
abbrev S1024x2048 : Shape := ⟨2, ![1024, 2048]⟩
abbrev S1024x256 : Shape := ⟨2, ![1024, 256]⟩
abbrev S_ : Shape := ⟨0, ![]⟩
abbrev S16384x1 : Shape := ⟨2, ![16384, 1]⟩
abbrev S16384x8 : Shape := ⟨2, ![16384, 8]⟩
abbrev S16384x8x1 : Shape := ⟨3, ![16384, 8, 1]⟩
abbrev S1 : Shape := ⟨1, ![1]⟩
abbrev S1x1x1 : Shape := ⟨3, ![1, 1, 1]⟩
abbrev S16384x8x2 : Shape := ⟨3, ![16384, 8, 2]⟩

abbrev nBuf : Space → Nat
  | .hbm => 97
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S256x2048, .f32⟩
  | .hbm, ⟨3, _⟩ => ⟨S128000x8, .i32⟩
  | .hbm, ⟨4, _⟩ => ⟨S16384x2048, .f32⟩
  | .hbm, ⟨5, _⟩ => ⟨S16384, .i32⟩
  | .hbm, ⟨6, _⟩ => ⟨S2048x256, .f32⟩
  | .hbm, ⟨7, _⟩ => ⟨S16384x256, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384x8, .i32⟩
  | .hbm, ⟨17, _⟩ => ⟨S_, .i32⟩
  | .hbm, ⟨18, _⟩ => ⟨S16384x8, .i32⟩
  | .hbm, ⟨19, _⟩ => ⟨S16384x8, .i1⟩
  | .hbm, ⟨20, _⟩ => ⟨S_, .i32⟩
  | .hbm, ⟨21, _⟩ => ⟨S16384x8, .i32⟩
  | .hbm, ⟨22, _⟩ => ⟨S16384x8, .i32⟩
  | .hbm, ⟨23, _⟩ => ⟨S16384x8, .i32⟩
  | .hbm, ⟨24, _⟩ => ⟨S16384x8x1, .i32⟩
  | .hbm, ⟨25, _⟩ => ⟨S1, .i32⟩
  | .hbm, ⟨26, _⟩ => ⟨S_, .i32⟩
  | .hbm, ⟨27, _⟩ => ⟨S16384x8x1, .i32⟩
  | .hbm, ⟨28, _⟩ => ⟨S16384x8x1, .i1⟩
  | .hbm, ⟨29, _⟩ => ⟨S1x1x1, .i32⟩
  | .hbm, ⟨30, _⟩ => ⟨S16384x8x1, .i32⟩
  | .hbm, ⟨31, _⟩ => ⟨S16384x8x1, .i1⟩
  | .hbm, ⟨32, _⟩ => ⟨S16384x8x1, .i1⟩
  | .hbm, ⟨33, _⟩ => ⟨S_, .i1⟩
  | .hbm, ⟨34, _⟩ => ⟨S16384x8, .i1⟩
  | .hbm, ⟨35, _⟩ => ⟨S16384x8, .f32⟩
  | .hbm, ⟨36, _⟩ => ⟨S_, .f32⟩
  | .hbm, ⟨37, _⟩ => ⟨S16384x8, .f32⟩
  | .hbm, ⟨38, _⟩ => ⟨S16384x8, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x8, .f32⟩
  | .hbm, ⟨47, _⟩ => ⟨S16384x8, .f32⟩
  | .hbm, ⟨48, _⟩ => ⟨S_, .f32⟩
  | .hbm, ⟨49, _⟩ => ⟨S16384x8, .f32⟩
  | .hbm, ⟨50, _⟩ => ⟨S16384x8, .f32⟩
  | .hbm, ⟨51, _⟩ => ⟨S16384, .i32⟩
  | .hbm, ⟨52, _⟩ => ⟨S16384x1, .i32⟩
  | .hbm, ⟨53, _⟩ => ⟨S_, .f32⟩
  | .hbm, ⟨54, _⟩ => ⟨S16384x256, .f32⟩
  | .hbm, ⟨55, _⟩ => ⟨S_, .i32⟩
  | .hbm, ⟨56, _⟩ => ⟨S16384x1, .i32⟩
  | .hbm, ⟨57, _⟩ => ⟨S16384x1, .i1⟩
  | .hbm, ⟨58, _⟩ => ⟨S_, .i32⟩
  | .hbm, ⟨59, _⟩ => ⟨S16384x1, .i32⟩
  | .hbm, ⟨60, _⟩ => ⟨S16384x1, .i32⟩
  | .hbm, ⟨61, _⟩ => ⟨S16384x1, .i32⟩
  | .hbm, ⟨62, _⟩ => ⟨S_, .i32⟩
  | .hbm, ⟨63, _⟩ => ⟨S16384x8, .i32⟩
  | .hbm, ⟨64, _⟩ => ⟨S16384x8, .i1⟩
  | .hbm, ⟨65, _⟩ => ⟨S_, .i32⟩
  | .hbm, ⟨66, _⟩ => ⟨S16384x8, .i32⟩
  | .hbm, ⟨67, _⟩ => ⟨S16384x8, .i32⟩
  | .hbm, ⟨68, _⟩ => ⟨S16384x8, .i32⟩
  | .hbm, ⟨69, _⟩ => ⟨S16384x8, .i32⟩
  | .hbm, ⟨70, _⟩ => ⟨S16384x8x1, .i32⟩
  | .hbm, ⟨71, _⟩ => ⟨S16384x8x1, .i32⟩
  | .hbm, ⟨72, _⟩ => ⟨S16384x8x2, .i32⟩
  | .hbm, ⟨73, _⟩ => ⟨S16384x256, .f32⟩
  | .hbm, ⟨74, _⟩ => ⟨S_, .i1⟩
  | .hbm, ⟨75, _⟩ => ⟨S16384x256, .i1⟩
  | .hbm, ⟨76, _⟩ => ⟨S_, .i32⟩
  | .hbm, ⟨77, _⟩ => ⟨S16384x1, .i32⟩
  | .hbm, ⟨78, _⟩ => ⟨S16384x1, .i1⟩
  | .hbm, ⟨79, _⟩ => ⟨S_, .i32⟩
  | .hbm, ⟨80, _⟩ => ⟨S16384x1, .i32⟩
  | .hbm, ⟨81, _⟩ => ⟨S16384x1, .i32⟩
  | .hbm, ⟨82, _⟩ => ⟨S16384x1, .i32⟩
  | .hbm, ⟨83, _⟩ => ⟨S_, .i32⟩
  | .hbm, ⟨84, _⟩ => ⟨S16384x8, .i32⟩
  | .hbm, ⟨85, _⟩ => ⟨S16384x8, .i1⟩
  | .hbm, ⟨86, _⟩ => ⟨S_, .i32⟩
  | .hbm, ⟨87, _⟩ => ⟨S16384x8, .i32⟩
  | .hbm, ⟨88, _⟩ => ⟨S16384x8, .i32⟩
  | .hbm, ⟨89, _⟩ => ⟨S16384x8, .i32⟩
  | .hbm, ⟨90, _⟩ => ⟨S16384x8, .i32⟩
  | .hbm, ⟨91, _⟩ => ⟨S16384x8x1, .i32⟩
  | .hbm, ⟨92, _⟩ => ⟨S16384x8x1, .i32⟩
  | .hbm, ⟨93, _⟩ => ⟨S16384x8x2, .i32⟩
  | .hbm, ⟨94, _⟩ => ⟨S_, .i1⟩
  | .hbm, ⟨95, _⟩ => ⟨S16384x8, .i1⟩
  | .hbm, ⟨96, _⟩ => ⟨S16384x256, .i1⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_c_4 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_c_7 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_8 : Ref sig .tc := ⟨.hbm, 74, rfl⟩
abbrev main_v37 : Ref sig .tc := ⟨.hbm, 75, rfl⟩
abbrev main_c_9 : Ref sig .tc := ⟨.hbm, 76, rfl⟩
abbrev main_v38 : Ref sig .tc := ⟨.hbm, 77, rfl⟩
abbrev main_v39 : Ref sig .tc := ⟨.hbm, 78, rfl⟩
abbrev main_c_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_11 : Ref sig .tc := ⟨.hbm, 83, rfl⟩
abbrev main_v43 : Ref sig .tc := ⟨.hbm, 84, rfl⟩
abbrev main_v44 : Ref sig .tc := ⟨.hbm, 85, rfl⟩
abbrev main_c_12 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_13 : Ref sig .tc := ⟨.hbm, 94, rfl⟩
abbrev main_v52 : Ref sig .tc := ⟨.hbm, 95, rfl⟩
abbrev main_v53 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x2048_S16384x2048 : S4x4096x2048.ShapeCasts S16384x2048
  shapeCasts_S4x4096_S16384 : S4x4096.ShapeCasts S16384
  transposes_S256x2048_S2048x256_1_0 : S256x2048.Transposes [1, 0] S2048x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  bcast_S_S16384 : S_.BroadcastsInDim S16384 (![] : Fin 0 → Fin S16384.rank)
  bcast_S16384_S16384x1_0 : S16384.BroadcastsInDim S16384x1 (![0] : Fin 1 → Fin S16384x1.rank)
  bcast_S_S16384x8 : S_.BroadcastsInDim S16384x8 (![] : Fin 0 → Fin S16384x8.rank)
  shapeCasts_S16384x8_S16384x8x1 : S16384x8.ShapeCasts S16384x8x1
  bcast_S_S16384x8x1 : S_.BroadcastsInDim S16384x8x1 (![] : Fin 0 → Fin S16384x8x1.rank)
  bcast_S1_S1x1x1_2 : S1.BroadcastsInDim S1x1x1 (![2] : Fin 1 → Fin S1x1x1.rank)
  bcast_S1x1x1_S16384x8x1_0_1_2 : S1x1x1.BroadcastsInDim S16384x8x1 (![0, 1, 2] : Fin 3 → Fin S16384x8x1.rank)
  reducesTo_S16384x8x1_S16384x8_d2 : S16384x8x1.ReducesTo [2] S16384x8
  h_S_ : 0 < S_.numel
  reducesTo_S16384x8_S16384_d1 : S16384x8.ReducesTo [1] S16384
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S_S16384x256 : S_.BroadcastsInDim S16384x256 (![] : Fin 0 → Fin S16384x256.rank)
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  dot_S1024x2048_S2048x256_S1024x256_1_0_0_1_n_n_wf : DotDims.WF S1024x2048 S2048x256 S1024x256 [1] [0] [0] [1] [] []
  gather_S128000x8_S16384x1_S16384x8_1_0_n_n_0_1_18_wf : GatherDims.WF S128000x8 S16384x1 S16384x8 [1] [0] [] [0] [] 1 ![1, 8]
  gather_S16384x256_S16384x8x1_S16384x8_n_1_0_0_1_2_11_wf : GatherDims.WF S16384x256 S16384x8x1 S16384x8 [] [1] [0] [1] [0] 2 ![1, 1]
  scatter_S16384x256_S16384x8x2_S16384x8_n_01_01_2_wf : ScatterDims.WF S16384x256 S16384x8x2 S16384x8 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def gather_S128000x8_S16384x1_S16384x8_1_0_n_n_0_1_18 : GatherDims S128000x8 S16384x1 S16384x8 where
  offsetDims := [1]
  collapsedSliceDims := [0]
  operandBatchingDims := []
  startIndicesBatchingDims := []
  startIndexMap := [0]
  indexVectorDim := 1
  sliceSizes := ![1, 8]
  wf := gather_S128000x8_S16384x1_S16384x8_1_0_n_n_0_1_18_wf
def gather_S16384x256_S16384x8x1_S16384x8_n_1_0_0_1_2_11 : GatherDims S16384x256 S16384x8x1 S16384x8 where
  offsetDims := []
  collapsedSliceDims := [1]
  operandBatchingDims := [0]
  startIndicesBatchingDims := [0]
  startIndexMap := [1]
  indexVectorDim := 2
  sliceSizes := ![1, 1]
  wf := gather_S16384x256_S16384x8x1_S16384x8_n_1_0_0_1_2_11_wf
def scatter_S16384x256_S16384x8x2_S16384x8_n_01_01_2 : ScatterDims S16384x256 S16384x8x2 S16384x8 where
  updateWindowDims := []
  insertedWindowDims := [0, 1]
  scatterDimsToOperandDims := [0, 1]
  indexVectorDim := 2
  wf := scatter_S16384x256_S16384x8x2_S16384x8_n_01_01_2_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096 : Shape := ⟨2, ![4, 4096]⟩
abbrev S256x2048 : Shape := ⟨2, ![256, 2048]⟩
abbrev S128000x8 : Shape := ⟨2, ![128000, 8]⟩
abbrev S16384x2048 : Shape := ⟨2, ![16384, 2048]⟩
abbrev S16384 : Shape := ⟨1, ![16384]⟩
abbrev S16384x256 : Shape := ⟨2, ![16384, 256]⟩
abbrev S_ : Shape := ⟨0, ![]⟩
abbrev S16384x1 : Shape := ⟨2, ![16384, 1]⟩
abbrev S16384x8 : Shape := ⟨2, ![16384, 8]⟩
abbrev S16384x8x1 : Shape := ⟨3, ![16384, 8, 1]⟩
abbrev S1 : Shape := ⟨1, ![1]⟩
abbrev S1x1x1 : Shape := ⟨3, ![1, 1, 1]⟩
abbrev S16384x8x2 : Shape := ⟨3, ![16384, 8, 2]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S256x2048, .f32⟩
  | .hbm, ⟨3, _⟩ => ⟨S128000x8, .i32⟩
  | .hbm, ⟨4, _⟩ => ⟨S16384x2048, .f32⟩
  | .hbm, ⟨5, _⟩ => ⟨S16384, .i32⟩
  | .hbm, ⟨6, _⟩ => ⟨S16384x256, .f32⟩
  | .hbm, ⟨7, _⟩ => ⟨S_, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x256, .i1⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384x8, .i32⟩
  | .hbm, ⟨31, _⟩ => ⟨S_, .i32⟩
  | .hbm, ⟨32, _⟩ => ⟨S16384x8, .i32⟩
  | .hbm, ⟨33, _⟩ => ⟨S16384x8, .i1⟩
  | .hbm, ⟨34, _⟩ => ⟨S_, .i32⟩
  | .hbm, ⟨35, _⟩ => ⟨S16384x8, .i32⟩
  | .hbm, ⟨36, _⟩ => ⟨S16384x8, .i32⟩
  | .hbm, ⟨37, _⟩ => ⟨S16384x8, .i32⟩
  | .hbm, ⟨38, _⟩ => ⟨S16384x8x1, .i32⟩
  | .hbm, ⟨39, _⟩ => ⟨S1, .i32⟩
  | .hbm, ⟨40, _⟩ => ⟨S_, .i32⟩
  | .hbm, ⟨41, _⟩ => ⟨S16384x8x1, .i32⟩
  | .hbm, ⟨42, _⟩ => ⟨S16384x8x1, .i1⟩
  | .hbm, ⟨43, _⟩ => ⟨S1x1x1, .i32⟩
  | .hbm, ⟨44, _⟩ => ⟨S16384x8x1, .i32⟩
  | .hbm, ⟨45, _⟩ => ⟨S16384x8x1, .i1⟩
  | .hbm, ⟨46, _⟩ => ⟨S16384x8x1, .i1⟩
  | .hbm, ⟨47, _⟩ => ⟨S_, .i1⟩
  | .hbm, ⟨48, _⟩ => ⟨S16384x8, .i1⟩
  | .hbm, ⟨49, _⟩ => ⟨S16384x8, .f32⟩
  | .hbm, ⟨50, _⟩ => ⟨S_, .f32⟩
  | .hbm, ⟨51, _⟩ => ⟨S16384x8, .f32⟩
  | .hbm, ⟨52, _⟩ => ⟨S16384x8, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x8, .f32⟩
  | .hbm, ⟨61, _⟩ => ⟨S16384x8, .f32⟩
  | .hbm, ⟨62, _⟩ => ⟨S_, .f32⟩
  | .hbm, ⟨63, _⟩ => ⟨S16384x8, .f32⟩
  | .hbm, ⟨64, _⟩ => ⟨S16384x8, .f32⟩
  | .hbm, ⟨65, _⟩ => ⟨S16384, .i32⟩
  | .hbm, ⟨66, _⟩ => ⟨S16384x1, .i32⟩
  | .hbm, ⟨67, _⟩ => ⟨S_, .f32⟩
  | .hbm, ⟨68, _⟩ => ⟨S16384x256, .f32⟩
  | .hbm, ⟨69, _⟩ => ⟨S_, .i32⟩
  | .hbm, ⟨70, _⟩ => ⟨S16384x1, .i32⟩
  | .hbm, ⟨71, _⟩ => ⟨S16384x1, .i1⟩
  | .hbm, ⟨72, _⟩ => ⟨S_, .i32⟩
  | .hbm, ⟨73, _⟩ => ⟨S16384x1, .i32⟩
  | .hbm, ⟨74, _⟩ => ⟨S16384x1, .i32⟩
  | .hbm, ⟨75, _⟩ => ⟨S16384x1, .i32⟩
  | .hbm, ⟨76, _⟩ => ⟨S_, .i32⟩
  | .hbm, ⟨77, _⟩ => ⟨S16384x8, .i32⟩
  | .hbm, ⟨78, _⟩ => ⟨S16384x8, .i1⟩
  | .hbm, ⟨79, _⟩ => ⟨S_, .i32⟩
  | .hbm, ⟨80, _⟩ => ⟨S16384x8, .i32⟩
  | .hbm, ⟨81, _⟩ => ⟨S16384x8, .i32⟩
  | .hbm, ⟨82, _⟩ => ⟨S16384x8, .i32⟩
  | .hbm, ⟨83, _⟩ => ⟨S16384x8, .i32⟩
  | .hbm, ⟨84, _⟩ => ⟨S16384x8x1, .i32⟩
  | .hbm, ⟨85, _⟩ => ⟨S16384x8x1, .i32⟩
  | .hbm, ⟨86, _⟩ => ⟨S16384x8x2, .i32⟩
  | .hbm, ⟨87, _⟩ => ⟨S16384x256, .f32⟩
  | .hbm, ⟨88, _⟩ => ⟨S_, .i1⟩
  | .hbm, ⟨89, _⟩ => ⟨S16384x256, .i1⟩
  | .hbm, ⟨90, _⟩ => ⟨S_, .i32⟩
  | .hbm, ⟨91, _⟩ => ⟨S16384x1, .i32⟩
  | .hbm, ⟨92, _⟩ => ⟨S16384x1, .i1⟩
  | .hbm, ⟨93, _⟩ => ⟨S_, .i32⟩
  | .hbm, ⟨94, _⟩ => ⟨S16384x1, .i32⟩
  | .hbm, ⟨95, _⟩ => ⟨S16384x1, .i32⟩
  | .hbm, ⟨96, _⟩ => ⟨S16384x1, .i32⟩
  | .hbm, ⟨97, _⟩ => ⟨S_, .i32⟩
  | .hbm, ⟨98, _⟩ => ⟨S16384x8, .i32⟩
  | .hbm, ⟨99, _⟩ => ⟨S16384x8, .i1⟩
  | .hbm, ⟨100, _⟩ => ⟨S_, .i32⟩
  | .hbm, ⟨101, _⟩ => ⟨S16384x8, .i32⟩
  | .hbm, ⟨102, _⟩ => ⟨S16384x8, .i32⟩
  | .hbm, ⟨103, _⟩ => ⟨S16384x8, .i32⟩
  | .hbm, ⟨104, _⟩ => ⟨S16384x8, .i32⟩
  | .hbm, ⟨105, _⟩ => ⟨S16384x8x1, .i32⟩
  | .hbm, ⟨106, _⟩ => ⟨S16384x8x1, .i32⟩
  | .hbm, ⟨107, _⟩ => ⟨S16384x8x2, .i32⟩
  | .hbm, ⟨108, _⟩ => ⟨S_, .i1⟩
  | .hbm, ⟨109, _⟩ => ⟨S16384x8, .i1⟩
  | .hbm, ⟨110, _⟩ => ⟨S16384x256, .i1⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_v14 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_2 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_c_4 : Ref sig .tc := ⟨.hbm, 69, rfl⟩
abbrev main_v23 : Ref sig .tc := ⟨.hbm, 70, rfl⟩
abbrev main_v24 : Ref sig .tc := ⟨.hbm, 71, rfl⟩
abbrev main_c_5 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_c_6 : Ref sig .tc := ⟨.hbm, 76, rfl⟩
abbrev main_v28 : Ref sig .tc := ⟨.hbm, 77, rfl⟩
abbrev main_v29 : Ref sig .tc := ⟨.hbm, 78, rfl⟩
abbrev main_c_7 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_c_8 : Ref sig .tc := ⟨.hbm, 88, rfl⟩
abbrev main_v38 : Ref sig .tc := ⟨.hbm, 89, rfl⟩
abbrev main_c_9 : Ref sig .tc := ⟨.hbm, 90, rfl⟩
abbrev main_v39 : Ref sig .tc := ⟨.hbm, 91, rfl⟩
abbrev main_v40 : Ref sig .tc := ⟨.hbm, 92, rfl⟩
abbrev main_c_10 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_c_11 : Ref sig .tc := ⟨.hbm, 97, rfl⟩
abbrev main_v44 : Ref sig .tc := ⟨.hbm, 98, rfl⟩
abbrev main_v45 : Ref sig .tc := ⟨.hbm, 99, rfl⟩
abbrev main_c_12 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_c_13 : Ref sig .tc := ⟨.hbm, 108, rfl⟩
abbrev main_v53 : Ref sig .tc := ⟨.hbm, 109, rfl⟩
abbrev main_v54 : Ref sig .tc := ⟨.hbm, 110, rfl⟩

abbrev nD : Nat := 1
abbrev τ : Topo := Topo.v7x

variable {F : FTy → Type} [FloatOps F]

class Facts₀ : Prop where
  shapeCasts_S4x4096x2048_S16384x2048 : S4x4096x2048.ShapeCasts S16384x2048
  shapeCasts_S4x4096_S16384 : S4x4096.ShapeCasts S16384
  bcast_S_S16384x256 : S_.BroadcastsInDim S16384x256 (![] : Fin 0 → Fin S16384x256.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x8 : S_.BroadcastsInDim S16384x8 (![] : Fin 0 → Fin S16384x8.rank)
  shapeCasts_S16384x8_S16384x8x1 : S16384x8.ShapeCasts S16384x8x1
  bcast_S_S16384x8x1 : S_.BroadcastsInDim S16384x8x1 (![] : Fin 0 → Fin S16384x8x1.rank)
  bcast_S1_S1x1x1_2 : S1.BroadcastsInDim S1x1x1 (![2] : Fin 1 → Fin S1x1x1.rank)
  bcast_S1x1x1_S16384x8x1_0_1_2 : S1x1x1.BroadcastsInDim S16384x8x1 (![0, 1, 2] : Fin 3 → Fin S16384x8x1.rank)
  reducesTo_S16384x8x1_S16384x8_d2 : S16384x8x1.ReducesTo [2] S16384x8
  h_S_ : 0 < S_.numel
  reducesTo_S16384x8_S16384_d1 : S16384x8.ReducesTo [1] S16384
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  dot_S16384x2048_S256x2048_S16384x256_1_1_0_0_n_n_wf : DotDims.WF S16384x2048 S256x2048 S16384x256 [1] [1] [0] [0] [] []
  gather_S128000x8_S16384x1_S16384x8_1_0_n_n_0_1_18_wf : GatherDims.WF S128000x8 S16384x1 S16384x8 [1] [0] [] [0] [] 1 ![1, 8]
  gather_S16384x256_S16384x8x1_S16384x8_n_1_0_0_1_2_11_wf : GatherDims.WF S16384x256 S16384x8x1 S16384x8 [] [1] [0] [1] [0] 2 ![1, 1]
  scatter_S16384x256_S16384x8x2_S16384x8_n_01_01_2_wf : ScatterDims.WF S16384x256 S16384x8x2 S16384x8 [] [0, 1] [0, 1] 2

variable [Facts₀]

def dot_S16384x2048_S256x2048_S16384x256_1_1_0_0_n_n : DotDims S16384x2048 S256x2048 S16384x256 where
  lhsContracting := [1]
  rhsContracting := [1]
  lhsNonContracting := [0]
  rhsNonContracting := [0]
  lhsBatch := []
  rhsBatch := []
  wf := dot_S16384x2048_S256x2048_S16384x256_1_1_0_0_n_n_wf
def gather_S128000x8_S16384x1_S16384x8_1_0_n_n_0_1_18 : GatherDims S128000x8 S16384x1 S16384x8 where
  offsetDims := [1]
  collapsedSliceDims := [0]
  operandBatchingDims := []
  startIndicesBatchingDims := []
  startIndexMap := [0]
  indexVectorDim := 1
  sliceSizes := ![1, 8]
  wf := gather_S128000x8_S16384x1_S16384x8_1_0_n_n_0_1_18_wf
def gather_S16384x256_S16384x8x1_S16384x8_n_1_0_0_1_2_11 : GatherDims S16384x256 S16384x8x1 S16384x8 where
  offsetDims := []
  collapsedSliceDims := [1]
  operandBatchingDims := [0]
  startIndicesBatchingDims := [0]
  startIndexMap := [1]
  indexVectorDim := 2
  sliceSizes := ![1, 1]
  wf := gather_S16384x256_S16384x8x1_S16384x8_n_1_0_0_1_2_11_wf
def scatter_S16384x256_S16384x8x2_S16384x8_n_01_01_2 : ScatterDims S16384x256 S16384x8x2 S16384x8 where
  updateWindowDims := []
  insertedWindowDims := [0, 1]
  scatterDimsToOperandDims := [0, 1]
  indexVectorDim := 2
  wf := scatter_S16384x256_S16384x8x2_S16384x8_n_01_01_2_wf

class Facts : Prop extends Facts₀ where

variable [Facts]
-- ==== Proof.FrameKernel.lean ====
/-
  The frame of the router kernel's program: it runs to the end, nothing faults, and the four argument arrays
  (hidden states, token ids, gate weight, hash table) end as they were launched.

  The program is three host lines (two reshapes and the transpose of the weight), one region of sixteen grid
  points, and eighty-nine host lines after it. At grid point `t` the region's body sees rows
  `1024 t … 1024 t + 1023` of the reshaped hidden states (window 0), the whole transposed weight (window 1,
  brought in at the first point and left in place afterwards), and writes rows `1024 t … 1024 t + 1023` of the
  score array (window 2). The body is two whole-block loads, one pure value (the product, softplus, square root)
  and one whole-block store, so what it leaves in the output block is that value of the two input blocks, and the
  input blocks are left as found. The later host lines read the score array and write only buffers of their own;
  none of them writes an argument array or an array the region stages.
-/
import proofs.«112636_j73813307949707_1_alg».proof.Proof.Gen.Kernel.Launch
import proofs.«112636_j73813307949707_1_alg».proof.Proof.Gen.Kernel.Skeleton
import proofs.«112636_j73813307949707_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided by a structural recursion one step per coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines after the region, stretch by stretch: the hash-table lookup, the gather of each token's eight
    scores, their sum, the clip, and the renormalisation and the two scatters. -/
abbrev tailOps : List (List (HloOp τ sig (Elt F))) := [hostOps1, hostOps1_1, hostOps1_2, hostOps1_3, hostOps1_4]

/-- What core `c`'s buffers hold when the region is entered: the launch contents after the three host lines
    before it (the two reshapes and the transpose). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the earlier lines, the region, the later lines: it reduces to the region continued by the later
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later line touches only unscoped TensorCore buffers: the region's arrays or buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- None allocates. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each line of this stretch writes only its own result buffer, which is none of the three arrays the region stages
    (the reshaped hidden states, the transposed weight, the scores). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each line of this stretch writes only its own result buffer, which is none of the three arrays the region stages
    (the reshaped hidden states, the transposed weight, the scores). -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each line of this stretch writes only its own result buffer, which is none of the three arrays the region stages
    (the reshaped hidden states, the transposed weight, the scores). -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each line of this stretch writes only its own result buffer, which is none of the three arrays the region stages
    (the reshaped hidden states, the transposed weight, the scores). -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each line of this stretch writes only its own result buffer, which is none of the three arrays the region stages
    (the reshaped hidden states, the transposed weight, the scores). -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- So no later line writes an array of the region. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No earlier line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes argument 0, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No earlier line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes argument 1, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No earlier line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes argument 2, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No earlier line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes argument 3, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The hidden-state window's current staging buffer holds its block at every point (it is brought in at every
    point), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole transposed weight at every point: brought in at the first
    point, and its block index never moves, so at a later point the buffer still holds what the body left. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every buffer bypassing the region as the later lines leave it, the four argument
    arrays end as launched: none is an array of the region, and no host line writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses -/

/-- The body's three accesses are the whole blocks. -/
abbrev r0_0 : Rect S1024x2048 := Rect.unit (s := S1024x2048) ![0, 0] S1024x2048.size inb_S1024x2048_S1024x2048_0_0
abbrev r0_1 : Rect S2048x256 := Rect.unit (s := S2048x256) ![0, 0] S2048x256.size inb_S2048x256_S2048x256_0_0
abbrev r0_2 : Rect S1024x256 := Rect.unit (s := S1024x256) ![0, 0] S1024x256.size inb_S1024x256_S1024x256_0_0

/-- What the body leaves in the score block: its one store, of the body's value of the two loaded blocks. -/
def out0_2 (x0 : Vec F S1024x2048 .f32) (x1 : Vec F S2048x256 .f32) : Vec F S1024x256 .f32 :=
  View.canon [⟨r0_2, k0_pay1 (View.ld x0 r0_0) (View.ld x1 r0_1)⟩]

/-- The one store covers the block. -/
theorem cover0_2 (p0 : Vec F S1024x256 .f32) (y : S1024x256.Idx) :
    ∃ pc ∈ ([⟨r0_2, p0⟩] : List (View.Piece (Elt F) S1024x256 .f32)), y ∈ pc.1.set :=
  View.cover_of_tiled [⟨r0_2, p0⟩] S1024x256.size (by rfl) y

/-! ## The body's triple -/

set_option maxHeartbeats 1000000 in
/-- The body, on whole staging buffers holding the input blocks `x0`, `x1` and anything in the output's, ends with
    the inputs' as they were and the output's at `out0_2 x0 x1`: it is two loads, a load of the output buffer whose
    value is never used, and one store of the body's value over the whole block. -/
theorem sound_kernel (c : Dev nD) (E : Set ℕ) (i : grid0.Coords)
    (arg1 : Memref sig .tc .vmem S1024x2048 .f32) (harg1 : arg1.IsWhole)
    (arg2 : Memref sig .tc .vmem S2048x256 .f32) (harg2 : arg2.IsWhole)
    (arg3 : Memref sig .tc .vmem S1024x256 .f32) (harg3 : arg3.IsWhole)
    (x0 : Vec F S1024x2048 .f32) (x1 : Vec F S2048x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gate_score_kernel i arg1 harg1 arg2 harg2 arg3 harg3) K := by
  simp only [cc0__gate_score_kernel_eq_skeleton]; unfold cc0__gate_score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t` each input's buffer at its
    block and the score buffer at the body's value of the two input blocks; nothing else touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The arrays of the proof data are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of the program terminates, and at the end every
    array of the region holds what the proof data say (the score array: block `t` is what point `t` wrote), and every
    other unscoped buffer what the later host lines leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs to the end, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.FrameKernelIdeal.lean ====
/-
  The frame of the router kernel's program: it runs to the end, nothing faults, and the four argument arrays
  (hidden states, token ids, gate weight, hash table) end as they were launched.

  The program is three host lines (two reshapes and the transpose of the weight), one region of sixteen grid
  points, and eighty-nine host lines after it. At grid point `t` the region's body sees rows
  `1024 t … 1024 t + 1023` of the reshaped hidden states (window 0), the whole transposed weight (window 1,
  brought in at the first point and left in place afterwards), and writes rows `1024 t … 1024 t + 1023` of the
  score array (window 2). The body is two whole-block loads, one pure value (the product, softplus, square root)
  and one whole-block store, so what it leaves in the output block is that value of the two input blocks, and the
  input blocks are left as found. The later host lines read the score array and write only buffers of their own;
  none of them writes an argument array or an array the region stages.
-/
import proofs.«112636_j73813307949707_1_alg».proof.Proof.Gen.KernelIdeal.Launch
import proofs.«112636_j73813307949707_1_alg».proof.Proof.Gen.KernelIdeal.Skeleton
import proofs.«112636_j73813307949707_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided by a structural recursion one step per coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines after the region, stretch by stretch: the hash-table lookup, the gather of each token's eight
    scores, their sum, the clip, and the renormalisation and the two scatters. -/
abbrev tailOps : List (List (HloOp τ sig (Elt F))) := [hostOps1, hostOps1_1, hostOps1_2, hostOps1_3, hostOps1_4]

/-- What core `c`'s buffers hold when the region is entered: the launch contents after the three host lines
    before it (the two reshapes and the transpose). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the earlier lines, the region, the later lines: it reduces to the region continued by the later
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later line touches only unscoped TensorCore buffers: the region's arrays or buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- None allocates. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each line of this stretch writes only its own result buffer, which is none of the three arrays the region stages
    (the reshaped hidden states, the transposed weight, the scores). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each line of this stretch writes only its own result buffer, which is none of the three arrays the region stages
    (the reshaped hidden states, the transposed weight, the scores). -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each line of this stretch writes only its own result buffer, which is none of the three arrays the region stages
    (the reshaped hidden states, the transposed weight, the scores). -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each line of this stretch writes only its own result buffer, which is none of the three arrays the region stages
    (the reshaped hidden states, the transposed weight, the scores). -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each line of this stretch writes only its own result buffer, which is none of the three arrays the region stages
    (the reshaped hidden states, the transposed weight, the scores). -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- So no later line writes an array of the region. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No earlier line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes argument 0, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No earlier line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes argument 1, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No earlier line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes argument 2, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No earlier line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes argument 3, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The hidden-state window's current staging buffer holds its block at every point (it is brought in at every
    point), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole transposed weight at every point: brought in at the first
    point, and its block index never moves, so at a later point the buffer still holds what the body left. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every buffer bypassing the region as the later lines leave it, the four argument
    arrays end as launched: none is an array of the region, and no host line writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses -/

/-- The body's three accesses are the whole blocks. -/
abbrev r0_0 : Rect S1024x2048 := Rect.unit (s := S1024x2048) ![0, 0] S1024x2048.size inb_S1024x2048_S1024x2048_0_0
abbrev r0_1 : Rect S2048x256 := Rect.unit (s := S2048x256) ![0, 0] S2048x256.size inb_S2048x256_S2048x256_0_0
abbrev r0_2 : Rect S1024x256 := Rect.unit (s := S1024x256) ![0, 0] S1024x256.size inb_S1024x256_S1024x256_0_0

/-- What the body leaves in the score block: its one store, of the body's value of the two loaded blocks. -/
def out0_2 (x0 : Vec F S1024x2048 .f32) (x1 : Vec F S2048x256 .f32) : Vec F S1024x256 .f32 :=
  View.canon [⟨r0_2, k0_pay1 (View.ld x0 r0_0) (View.ld x1 r0_1)⟩]

/-- The one store covers the block. -/
theorem cover0_2 (p0 : Vec F S1024x256 .f32) (y : S1024x256.Idx) :
    ∃ pc ∈ ([⟨r0_2, p0⟩] : List (View.Piece (Elt F) S1024x256 .f32)), y ∈ pc.1.set :=
  View.cover_of_tiled [⟨r0_2, p0⟩] S1024x256.size (by rfl) y

/-! ## The body's triple -/

set_option maxHeartbeats 1000000 in
/-- The body, on whole staging buffers holding the input blocks `x0`, `x1` and anything in the output's, ends with
    the inputs' as they were and the output's at `out0_2 x0 x1`: it is two loads, a load of the output buffer whose
    value is never used, and one store of the body's value over the whole block. -/
theorem sound_kernel (c : Dev nD) (E : Set ℕ) (i : grid0.Coords)
    (arg1 : Memref sig .tc .vmem S1024x2048 .f32) (harg1 : arg1.IsWhole)
    (arg2 : Memref sig .tc .vmem S2048x256 .f32) (harg2 : arg2.IsWhole)
    (arg3 : Memref sig .tc .vmem S1024x256 .f32) (harg3 : arg3.IsWhole)
    (x0 : Vec F S1024x2048 .f32) (x1 : Vec F S2048x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gate_score_kernel i arg1 harg1 arg2 harg2 arg3 harg3) K := by
  simp only [cc0__gate_score_kernel_eq_skeleton]; unfold cc0__gate_score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t` each input's buffer at its
    block and the score buffer at the body's value of the two input blocks; nothing else touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The arrays of the proof data are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of the program terminates, and at the end every
    array of the region holds what the proof data say (the score array: block `t` is what point `t` wrote), and every
    other unscoped buffer what the later host lines leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs to the end, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.Spec.lean ====
/-
  What the router's score stage computes, stated once for both programs.

  A token's logit for an expert is the inner product of the token's hidden row (length 2048) with the expert's
  weight row; the score is the square root of the softplus of the logit, the softplus written in its
  overflow-safe form  softplus x = max x 0 + log (1 + exp (-|x|)).  On the extended reals every operation
  here is the exact one, so the score array is one function of the hidden rows `H` (16384 tokens by 2048)
  and the weight `w` (256 experts by 2048), entry by entry.
-/
import Idealize.ShloMosaic.PureOps.Ideal
import Idealize.ShloMosaic.Lib.ValueIdx

noncomputable section

open scoped BigOperators

namespace Cert.Spec

open Idealize.ShloMosaic Idealize.ShloMosaic.ValueIdx

/-- The square root of the softplus of a logit, on the extended reals:
    `sqrt (max x 0 + log (1 + exp (-|x|)))`, with `|x|` written `max x (-x)`. -/
def score (x : EReal) : EReal :=
  Ideal.sqrt (max x 0 + Ideal.log1p (Ideal.exp (-(max x (-x)))))

/-- The score array: entry `(n, e)` is the score of the logit `∑ k, H (n, k) * w (e, k)`. -/
def scores (H : (⟨2, ![16384, 2048]⟩ : Shape).Idx → EReal) (w : (⟨2, ![256, 2048]⟩ : Shape).Idx → EReal) :
    (⟨2, ![16384, 256]⟩ : Shape).Idx → EReal :=
  fun i => score (∑ k : Fin 2048, H (ix2 (i 0) k) * w (ix2 (i 1) k))

end Cert.Spec

end
-- ==== Proof.KPayload.lean ====
/-
  The score kernel's body, read one entry at a time, and the host's transpose of the weight.

  The body takes a block of 1024 hidden rows (each of length 2048) and the transposed weight (2048 by 256),
  multiplies them, and applies "square root of softplus" to every entry of the product.  On the extended
  reals:

  * entry (p, q) of the block product is the sum over k of x0 (p, k) * x3 (k, q): the accumulator the product
    is added into is the zero array, and the contraction runs over the one shared axis of length 2048;
  * a change of float format (here: narrowing the two operands to the 16-bit format before the product) is
    the identity, because an extended real carries no format;
  * the body guards its softplus with the test "d ≠ d", which on floats detects a NaN; the extended reals
    have no NaN, every d equals itself, so the guard never fires and the guarded branch is always the softplus;
  * the literal word 0x00000000 is the real number 0, so "d - 0" is d, "0 - a" is -a, and |d| is max d (-d);

  hence the stored entry is sqrt (max s 0 + log (1 + exp (-|s|))) of the sum s above, which is the
  specification's score of that sum.
-/
import proofs.«112636_j73813307949707_1_alg».proof.Proof.Gen.KernelIdeal.Skeleton
import proofs.«112636_j73813307949707_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The block product at an entry -/

/-- The left operand's row coordinate at output entry j is j's row, whatever the contraction position. -/
theorem lhs_row (j : S1024x256.Idx) (c : dot_S1024x2048_S2048x256_S1024x256_1_0_0_1_n_n.contr.Idx) :
    (dot_S1024x2048_S2048x256_S1024x256_1_0_0_1_n_n.lhsIdx j c 0).val = (j 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

/-- The left operand's column coordinate is the contraction position. -/
theorem lhs_col (j : S1024x256.Idx) (c : dot_S1024x2048_S2048x256_S1024x256_1_0_0_1_n_n.contr.Idx) :
    (dot_S1024x2048_S2048x256_S1024x256_1_0_0_1_n_n.lhsIdx j c 1).val = (c ⟨0, by decide⟩).val :=
  dot_S1024x2048_S2048x256_S1024x256_1_0_0_1_n_n.lhsIdx_val_of_single rfl j c

/-- The right operand's row coordinate is the contraction position. -/
theorem rhs_row (j : S1024x256.Idx) (c : dot_S1024x2048_S2048x256_S1024x256_1_0_0_1_n_n.contr.Idx) :
    (dot_S1024x2048_S2048x256_S1024x256_1_0_0_1_n_n.rhsIdx j c 0).val = (c ⟨0, by decide⟩).val :=
  dot_S1024x2048_S2048x256_S1024x256_1_0_0_1_n_n.rhsIdx_val_of_single rfl j c

/-- The right operand's column coordinate at output entry j is j's column, whatever the contraction position. -/
theorem rhs_col (j : S1024x256.Idx) (c : dot_S1024x2048_S2048x256_S1024x256_1_0_0_1_n_n.contr.Idx) :
    (dot_S1024x2048_S2048x256_S1024x256_1_0_0_1_n_n.rhsIdx j c 1).val = (j 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- Entry (p, q) of the product of a 1024 × 2048 block a with a 2048 × 256 block b, accumulated into the
    zero array, is ∑ k, a (p, k) * b (k, q): the contraction index set has one axis of length 2048, and
    re-indexing the sum by that axis's coordinate k puts the left operand at (p, k) and the right at (k, q). -/
theorem matmul_entry {φ₁ φ₂ : FTy} (a : FVec Ideal S1024x2048 φ₁) (b : FVec Ideal S2048x256 φ₂) (p : Fin 1024) (q : Fin 256) :
    FloatOps.matmul dot_S1024x2048_S2048x256_S1024x256_1_0_0_1_n_n none a b (constant S1024x256 .f32 0x00000000#32) (ix2 p q)
      = ∑ k : Fin 2048, a (ix2 p k) * b (ix2 k q) := by
  rw [Ideal.matmul_constant_zero_apply,
    ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q)
      ((contrEquiv1 dot_S1024x2048_S2048x256_S1024x256_1_0_0_1_n_n 2048 rfl rfl).symm k) = ix2 p k :=
    funext fun d => Fin.ext (by
      match d with
      | ⟨0, _⟩ => exact lhs_row _ _
      | ⟨1, _⟩ => exact (lhs_col _ _).trans hk)
  have er : dot_S1024x2048_S2048x256_S1024x256_1_0_0_1_n_n.rhsIdx (ix2 p q)
      ((contrEquiv1 dot_S1024x2048_S2048x256_S1024x256_1_0_0_1_n_n 2048 rfl rfl).symm k) = ix2 k q :=
    funext fun d => Fin.ext (by
      match d with
      | ⟨0, _⟩ => exact (rhs_row _ _).trans hk
      | ⟨1, _⟩ => exact rhs_col _ _)
  rw [el, er]

/-! ## The pointwise part: no NaN, so the guard never fires -/

/-- On the extended reals nothing differs from itself, so the comparison "d ≠ d" answers the bit 0. -/
theorem cmp_one_self (d : EReal) : Ideal.cmp .one d d = 0#1 := by
  unfold Ideal.cmp
  simp

/-- What the body does to one entry s of the product, z being the value of its zero literal.  Once z = 0:
    the test "s - 0 ≠ s - 0" answers 0, so the select takes its softplus branch
    max s 0 + log (1 + exp (0 - |s - 0|)) with |a| = max a (-a); and s - 0 = s, 0 - a = -a turn that
    into the specification's score of s. -/
theorem body_entry (s z : EReal) (hz : z = 0) :
    Ideal.sqrt (Scalar.select (Ideal.cmp .one (s - z) (s - z)) (s + z)
        (max s z + Ideal.log1p (Ideal.exp (z - max (s - z) (-(s - z)))))) = Cert.Spec.score s := by
  subst hz
  rw [cmp_one_self, select_zero, sub_zero, zero_sub]
  rfl

/-! ## The stored value at an entry -/

/-- THE BODY AT AN ENTRY: the value the kernel's body stores at (p, q) is sqrt (softplus s) for
    s = ∑ k, x0 (p, k) * x3 (k, q). -/
theorem pay_apply (x0 : Vec Ideal S1024x2048 .f32) (x3 : Vec Ideal S2048x256 .f32) (p : Fin 1024) (q : Fin 256) :
    k0_pay1 (F := Ideal) x0 x3 (ix2 p q) = Cert.Spec.score (∑ k : Fin 2048, x0 (ix2 p k) * x3 (ix2 k q)) := by
  unfold k0_pay1
  rw [shapeCast_self, shapeCast_self]
  -- narrowing an operand to the 16-bit format changes nothing, so the product's entry is the sum over x0 and x3 themselves
  have hm : FloatOps.matmul dot_S1024x2048_S2048x256_S1024x256_1_0_0_1_n_n none
      (truncf (F := Ideal) .bf16 x0 bitsLt_bf16_f32) (truncf (F := Ideal) .bf16 x3 bitsLt_bf16_f32)
      (constant S1024x256 .f32 0x00000000#32) (ix2 p q) = ∑ k : Fin 2048, x0 (ix2 p k) * x3 (ix2 k q) :=
    matmul_entry _ _ p q
  rw [← hm]
  -- every later operation acts entry by entry, and the zero literal is the real 0
  exact body_entry _ (Ideal.ofBits .f32 0x00000000#32) Ideal.ofBits_zero_f32

/-! ## The host's transpose of the weight -/

/-- The weight arrives as 256 expert rows of length 2048 and the host hands the kernel its transpose:
    entry (k, q) of the transpose is entry (q, k) of the weight. -/
theorem transpose_weight_apply {α : Type} (w : S256x2048.Idx → α) (k : Fin 2048) (q : Fin 256) :
    transpose S2048x256 [1, 0] w transposes_S256x2048_S2048x256_1_0 (ix2 k q) = w (ix2 q k) :=
  transpose_apply [1, 0] w transposes_S256x2048_S2048x256_1_0 (ix2 k q) (ix2 q k)
    (fun b => by match b with | ⟨0, _⟩ => rfl | ⟨1, _⟩ => rfl)

end Cert.KernelIdeal.Pay

end
-- ==== Proof.KValue.lean ====
/-
  The score array after the region, as one function of the argument arrays.

  Grid point `t` writes back rows `1024 t … 1024 t + 1023` of the score array. Entry `(p, q)` of what it writes is the
  score of `∑ k, A (p, k) * B (k, q)`, where `A` is the point's block of the reshaped hidden states — row `p` of the
  block is row `1024 t + p` of the array — and `B` is the transposed weight, `B (k, q) = w (q, k)`. So block `t` of the
  score array is block `t` of the specification's `scores H w`; the sixteen blocks cover the array (row `r` is in
  block `r / 1024`), hence the array is `scores H w`.
-/
import proofs.«112636_j73813307949707_1_alg».proof.Proof.FrameKernelIdeal
import proofs.«112636_j73813307949707_1_alg».proof.Proof.KPayload
import proofs.«112636_j73813307949707_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- A grid point is one of sixteen. -/
theorem t_lt (t : Fin cfg0.N) : t.val < 16 := lt_of_lt_of_eq t.isLt N_0

theorem hz : (![0, 0] : Fin 2 → Nat) = fun _ => 0 := funext fun a => by fin_cases a <;> rfl

/-- The hidden states reshaped to 16384 rows, as the region finds them. -/
def hid (c : Dev nD) : S16384x2048.Idx → EReal := V m c main_v0

/-- The score array the specification assigns to the launch contents. -/
def G (c : Dev nD) : S16384x256.Idx → EReal :=
  Cert.Spec.scores (hid m c) (m ((c : Thread nD τ).loc main_arg2))

/-- The transposed weight, as the region finds it, is the host's transpose of the launched weight. -/
theorem V_main_v2 (c : Dev nD) : (V m c main_v2 : S2048x256.Idx → EReal)
    = transpose S2048x256 [1, 0] (m ((c : Thread nD τ).loc main_arg2)) transposes_S256x2048_S2048x256_1_0 := by
  show StableHlo.after hostOps0 (fun b => m (c, b)) (Proc.devRef .tc main_v2) = _
  after_results

/-- The block index maps, decided over the sixteen points: the hidden-state and score windows are at block row `t`,
    column block 0; the weight window never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p`, column `k` of point `t`'s hidden-state block is row `1024 t + p` of the reshaped array. -/
theorem blk0_apply (c : Dev nD) (t : Fin cfg0.N) (p : Fin 1024) (k : Fin 2048) :
    iblk m c 0 t (ix2 p k) = hid m c (ix2 ⟨t.val * 1024 + p.val, by have := t_lt t; have := p.isLt; omega⟩ k) := by
  obtain ⟨e0, e1, -, -, -, -⟩ := idx_facts t
  show V m c main_v0 (((cfg0.win 0).blk t).view.emb (ix2 p k)) = V m c main_v0 _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 2048 + 1 * k.val = k.val; omega

/-- The weight window's block at any point is the whole transposed weight: entry `(k, q)` is `w (q, k)`. -/
theorem blk1_apply (c : Dev nD) (t : Fin cfg0.N) (k : Fin 2048) (q : Fin 256) :
    iblk m c 1 t (ix2 k q) = m ((c : Thread nD τ).loc main_arg2) (ix2 q k) := by
  obtain ⟨-, -, e2, e3, -, -⟩ := idx_facts t
  have h : iblk m c 1 t (ix2 k q) = (V m c main_v2 : S2048x256.Idx → EReal) (ix2 k q) := by
    show V m c main_v2 (((cfg0.win 1).blk t).view.emb (ix2 k q)) = V m c main_v2 _
    refine congrArg _ (funext fun a => Fin.ext ?_)
    match a with
    | ⟨0, _⟩ => show win0_1.index t (0 : Fin 2) * 2048 + 1 * k.val = k.val; omega
    | ⟨1, _⟩ => show win0_1.index t (1 : Fin 2) * 256 + 1 * q.val = q.val; omega
  rw [h, V_main_v2]
  exact Cert.KernelIdeal.Pay.transpose_weight_apply _ k q

/-- What point `t` writes back is block `t` of the specification's score array. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S1024x2048) hz, View.ld_unit_zero (S := S2048x256) hz]
  obtain ⟨-, -, -, -, e4, e5⟩ := idx_facts t
  funext j
  obtain ⟨p, q, rfl⟩ : ∃ (p : Fin 1024) (q : Fin 256), j = ix2 p q := ⟨j 0, j 1, eq_ix2 j⟩
  show k0_pay1 (F := Ideal) (iblk m c 0 t) (iblk m c 1 t) (ix2 p q) = G m c (((cfg0.win 2).blk t).view.emb (ix2 p q))
  refine (Cert.KernelIdeal.Pay.pay_apply (iblk m c 0 t) (iblk m c 1 t) p q).trans ?_
  have hrow : (((cfg0.win 2).blk t).view.emb (ix2 p q) : S16384x256.Idx)
      = ix2 ⟨t.val * 1024 + p.val, by have := t_lt t; have := p.isLt; omega⟩ q := by
    funext a; apply Fin.ext
    match a with
    | ⟨0, _⟩ => show win0_2.index t (0 : Fin 2) * 1024 + 1 * p.val = t.val * 1024 + p.val; omega
    | ⟨1, _⟩ => show win0_2.index t (1 : Fin 2) * 256 + 1 * q.val = q.val; omega
  rw [hrow]
  unfold G Cert.Spec.scores
  refine congrArg Cert.Spec.score (Finset.sum_congr rfl fun k _ => ?_)
  rw [blk0_apply, blk1_apply]

/-- An index of the score array is in point `t`'s block iff its row is among the block's 1024 rows. -/
theorem mem_blk (t : Fin cfg0.N) (i : S16384x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v3).slice (win0_2.rect t)).set ↔ _
  rw [View.set_slice_whole, Rect.mem_set_unit]
  exact Iff.rfl

/-- The sixteen blocks cover the score array: row `r` lies in block `r / 1024`. -/
theorem cover (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  let t : Fin cfg0.N := ⟨(i 0).val / 1024, by rw [show cfg0.N = 16 from N_0]; omega⟩
  obtain ⟨-, -, -, -, e4, e5⟩ := idx_facts t
  have e4' : win0_2.index t (0 : Fin 2) = (i 0).val / 1024 := e4
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- The score array after the region is the specification's. -/
theorem final (c : Dev nD) : (dats m 0 c).arrAt 2 cfg0.N = G m c :=
  (dats m 0 c).arrAt_eq_of_cover 2 (G m c) (fun t _ => flushed_eq m c t) cover

end Cert.KernelIdeal.Val

end
-- ==== Proof.RefScores.lean ====
/-
  The reference program's score stage is the specification's score array.

  The reference forms each token's logit for each expert as the inner product of the token's hidden row with
  the expert's weight row, applies the overflow-safe softplus, and takes the square root.  The softplus, as the
  reference writes it, carries one extra branch: it first forms d = x - 0 and, where d differs from itself,
  returns x + 0 instead of  max x 0 + log (1 + exp (-|d|)).  Over floats that branch passes a NaN through.  On
  the extended reals every value equals itself, so the branch is never taken, d is x, and what is left is
  exactly  sqrt (max x 0 + log (1 + exp (-|x|)))  with |x| = max x (-x).
-/
import proofs.«112636_j73813307949707_1_alg».proof.Proof.RefRead
import proofs.«112636_j73813307949707_1_alg».proof.Proof.Spec

noncomputable section

open scoped BigOperators

namespace Cert.ReferenceIdeal.RefScores

open Cert.ReferenceIdeal Cert.ReferenceIdeal.ReadP Idealize.ShloMosaic Idealize.ShloMosaic.ValueIdx

/-- On the extended reals the comparison "d is not d" is the bit 0: equality is reflexive, and there is no
    value, such as a float NaN, that differs from itself. -/
theorem cmp_une_self (d : Ideal .f32) : FloatOps.cmpf .une d d = 0#1 := by
  show BitVec.ofBool (decide (d ≠ d)) = 0#1
  simp

/-- One entry of the score stage as a function of its logit `s`.  With `z` the literal whose bits are all zero
    (the real number 0) and `d = s - z`, the reference computes
    `sqrt (if d ≠ d then s + z else max s z + log1p (exp (-|d|)))`.
    The guard is false, `z = 0` and `d = s - 0 = s`, so this is `sqrt (max s 0 + log1p (exp (-(max s (-s)))))`,
    the specification's score of `s`. -/
theorem score_chain (s : Ideal .f32) :
    FloatOps.hostUnary .sqrt
      (Scalar.select
        (FloatOps.cmpf .une (FloatOps.subf s (FloatOps.ofBits .f32 0x00000000#32))
          (FloatOps.subf s (FloatOps.ofBits .f32 0x00000000#32)))
        (FloatOps.addf s (FloatOps.ofBits .f32 0x00000000#32))
        (FloatOps.addf (FloatOps.maximumf s (FloatOps.ofBits .f32 0x00000000#32))
          (FloatOps.hostUnary .log1p (FloatOps.hostUnary .exp (FloatOps.hostNegf (FloatOps.hostAbsf
            (FloatOps.subf s (FloatOps.ofBits .f32 0x00000000#32))))))))
      = Cert.Spec.score s := by
  -- the guard never fires: the select takes its last operand
  rw [cmp_une_self, select_zero]
  -- the literal is the real 0, and subtracting 0 changes nothing
  rw [Ideal.ofBits_def, Ideal.ofBits_zero_f32, Ideal.subf_def, sub_zero]
  -- what remains is the specification's formula, operation by operation
  rfl

/-- The index the contraction reads the hidden array at, row `i 0` and column `k`, written from its coordinates. -/
theorem lidx_eq (i : S16384x256.Idx) (k : Fin 2048) : lidx_main_v2 i k = ix2 (i 0) k :=
  funext fun a => by match a with | ⟨0, _⟩ => rfl | ⟨1, _⟩ => rfl

/-- The index the contraction reads the weight at, row `i 1` and column `k`, written from its coordinates. -/
theorem ridx_eq (i : S16384x256.Idx) (k : Fin 2048) : ridx_main_v2 i k = ix2 (i 1) k :=
  funext fun a => by match a with | ⟨0, _⟩ => rfl | ⟨1, _⟩ => rfl

/-- The reference's score array is the specification's.  Entry `(n, e)` of the reference's fourth stage is the
    square root of its softplus stage at `(n, e)`; the softplus stage is a chain of entrywise operations on the
    logit `x = ∑ k, H (n, k) * w (e, k)`, where `H` is the hidden array reshaped to 16384 rows and `w` the expert
    weight, the sum being the contraction of the two length-2048 rows.  Reading every stage at the entry leaves a
    scalar expression in `x` alone: `sqrt (if x - 0 ≠ x - 0 then x + 0 else max x 0 + log1p (exp (-|x - 0|)))`.
    The extended reals have no NaN, so `x - 0 ≠ x - 0` is false and the expression is
    `sqrt (max x 0 + log1p (exp (-|x|)))` with `|x| = max x (-x)`: the specification's score of the same logit. -/
theorem scores_eq (x0 : (⟨S4x4096x2048, .f32⟩ : BufTy).Contents (Elt Ideal)) (x2 : (⟨S256x2048, .f32⟩ : BufTy).Contents (Elt Ideal)) :
    val_main_v4 (F := Ideal) x0 x2 = Cert.Spec.scores (val_main_v0 (F := Ideal) x0) x2 := by
  funext i
  -- read every stage at the entry `i`, outermost first, down to the logit
  rw [val_main_v4_apply, val_main_v3_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, val_main_v2_apply]
  -- the scalar chain is the score of the logit
  refine (score_chain _).trans ?_
  -- and the logit is the specification's inner product: the two read indices are `(n, k)` and `(e, k)`
  show Cert.Spec.score _ = Cert.Spec.score _
  refine congrArg Cert.Spec.score (Finset.sum_congr rfl fun k _ => ?_)
  rw [lidx_eq, ridx_eq]
  rfl

end Cert.ReferenceIdeal.RefScores

end
-- ==== Proof.Bridge.lean ====
/-
  The kernel's program and the reference end with the same two results.

  The reference is 107 host lines: the first eighteen compute the score array (two reshapes, the contraction, the
  softplus function, the square root), and the remaining eighty-nine are, line for line, the eighty-nine lines that
  follow the region in the kernel's program. Those later lines read three buffers only — the score array, the reshaped
  token ids and the hash table. So it is enough that the two programs reach the later lines with those three buffers
  equal: then the folds of the later lines agree at the result buffers, with nothing in them opened.

  The three buffers: the token ids are the launched ids reshaped, and the hash table is as launched, in both; the score
  array is, in the kernel's program, the specification's `scores` of the reshaped hidden states and the weight (the
  sixteen blocks the region wrote), and in the reference the value of its first eighteen lines, which is its fourth
  stage, which is the specification's `scores` of the same two arrays.
-/
import proofs.«112636_j73813307949707_1_alg».proof.Proof.KValue
import proofs.«112636_j73813307949707_1_alg».proof.Proof.RefRead
import proofs.«112636_j73813307949707_1_alg».proof.Proof.RefScores
import Idealize.ShloMosaic.Lib.StableHlo.Run

-- the closing comparisons are between two deep terms of the same shape
set_option maxRecDepth 65536

noncomputable section

namespace Cert.Bridge

open Idealize.ShloMosaic Idealize.ShloMosaic.TcCoe Idealize.ShloMosaic.StableHlo
open Idealize.SL Idealize.SL.Sem

/-! ## The later lines, compared as folds -/

/-- The row-index column and the expert-index column joined along the last axis — the pair (token, expert) each
    update is written at — as a plain function of the two columns (the kernel's program's spelling), -/
def pairK (a b : (⟨Cert.KernelIdeal.S16384x8x1, .i32⟩ : BufTy).Contents (Elt Ideal)) : (⟨Cert.KernelIdeal.S16384x8x2, .i32⟩ : BufTy).Contents (Elt Ideal) :=
  concatenate Cert.KernelIdeal.S16384x8x2 2 [⟨Cert.KernelIdeal.S16384x8x1, a⟩, ⟨Cert.KernelIdeal.S16384x8x1, b⟩] Cert.KernelIdeal.Facts₀.concatenates_S16384x8x1_S16384x8x1_S16384x8x2_d2
theorem pairK_eq : (fun (a b : (⟨Cert.KernelIdeal.S16384x8x1, .i32⟩ : BufTy).Contents (Elt Ideal)) =>
    concatenate Cert.KernelIdeal.S16384x8x2 2 [⟨Cert.KernelIdeal.S16384x8x1, a⟩, ⟨Cert.KernelIdeal.S16384x8x1, b⟩] Cert.KernelIdeal.Facts₀.concatenates_S16384x8x1_S16384x8x1_S16384x8x2_d2) = pairK := rfl
/-- and the same function in the reference's spelling. -/
def pairR (a b : (⟨Cert.ReferenceIdeal.S16384x8x1, .i32⟩ : BufTy).Contents (Elt Ideal)) : (⟨Cert.ReferenceIdeal.S16384x8x2, .i32⟩ : BufTy).Contents (Elt Ideal) :=
  concatenate Cert.ReferenceIdeal.S16384x8x2 2 [⟨Cert.ReferenceIdeal.S16384x8x1, a⟩, ⟨Cert.ReferenceIdeal.S16384x8x1, b⟩] Cert.ReferenceIdeal.Facts₀.concatenates_S16384x8x1_S16384x8x1_S16384x8x2_d2
theorem pairR_eq : (fun (a b : (⟨Cert.ReferenceIdeal.S16384x8x1, .i32⟩ : BufTy).Contents (Elt Ideal)) =>
    concatenate Cert.ReferenceIdeal.S16384x8x2 2 [⟨Cert.ReferenceIdeal.S16384x8x1, a⟩, ⟨Cert.ReferenceIdeal.S16384x8x1, b⟩] Cert.ReferenceIdeal.Facts₀.concatenates_S16384x8x1_S16384x8x1_S16384x8x2_d2) = pairR := rfl
theorem pairK_pairR : pairK = pairR := rfl

set_option maxHeartbeats 80000000 in
/-- The probabilities: if the later lines start, in the two programs, from the same score array, token ids and hash
    table, they leave the same array of probabilities. -/
theorem tails_probs (Wk : Valuation Cert.KernelIdeal.τ Cert.KernelIdeal.sig (Elt Ideal)) (M1 : Valuation Cert.ReferenceIdeal.τ Cert.ReferenceIdeal.sig (Elt Ideal))
    (hs : Wk (Proc.devRef .tc Cert.KernelIdeal.main_v3) = M1 (Proc.devRef .tc Cert.ReferenceIdeal.main_v4))
    (h1 : Wk (Proc.devRef .tc Cert.KernelIdeal.main_v1) = M1 (Proc.devRef .tc Cert.ReferenceIdeal.main_v1))
    (h3 : Wk (Proc.devRef .tc Cert.KernelIdeal.main_arg3) = M1 (Proc.devRef .tc Cert.ReferenceIdeal.main_arg3)) :
    after (List.flatten (Cert.KernelIdeal.Frm.tailOps (F := Ideal))) Wk (Proc.devRef .tc Cert.KernelIdeal.main_v36)
      = after (List.drop 18 (Cert.ReferenceIdeal.ValueP.ops (F := Ideal))) M1 (Proc.devRef .tc Cert.ReferenceIdeal.main_v37) := by
  simp only [Cert.KernelIdeal.Frm.tailOps, Cert.KernelIdeal.Gen.hostOps1, Cert.KernelIdeal.Gen.hostOps1_1, Cert.KernelIdeal.Gen.hostOps1_2, Cert.KernelIdeal.Gen.hostOps1_3, Cert.KernelIdeal.Gen.hostOps1_4, List.flatten_cons, List.flatten_nil, List.append_nil, List.cons_append, List.nil_append, Cert.ReferenceIdeal.ValueP.ops, List.drop_succ_cons, List.drop_zero, pairK_eq, pairR_eq]
  after_results_simp
  rw [hs, h1, h3, pairK_pairR]
  rfl

set_option maxHeartbeats 80000000 in
/-- The routing map: it depends on the token ids and the hash table only. -/
theorem tails_map (Wk : Valuation Cert.KernelIdeal.τ Cert.KernelIdeal.sig (Elt Ideal)) (M1 : Valuation Cert.ReferenceIdeal.τ Cert.ReferenceIdeal.sig (Elt Ideal))
    (h1 : Wk (Proc.devRef .tc Cert.KernelIdeal.main_v1) = M1 (Proc.devRef .tc Cert.ReferenceIdeal.main_v1))
    (h3 : Wk (Proc.devRef .tc Cert.KernelIdeal.main_arg3) = M1 (Proc.devRef .tc Cert.ReferenceIdeal.main_arg3)) :
    after (List.flatten (Cert.KernelIdeal.Frm.tailOps (F := Ideal))) Wk (Proc.devRef .tc Cert.KernelIdeal.main_v53)
      = after (List.drop 18 (Cert.ReferenceIdeal.ValueP.ops (F := Ideal))) M1 (Proc.devRef .tc Cert.ReferenceIdeal.main_v54) := by
  simp only [Cert.KernelIdeal.Frm.tailOps, Cert.KernelIdeal.Gen.hostOps1, Cert.KernelIdeal.Gen.hostOps1_1, Cert.KernelIdeal.Gen.hostOps1_2, Cert.KernelIdeal.Gen.hostOps1_3, Cert.KernelIdeal.Gen.hostOps1_4, List.flatten_cons, List.flatten_nil, List.append_nil, List.cons_append, List.nil_append, Cert.ReferenceIdeal.ValueP.ops, List.drop_succ_cons, List.drop_zero, pairK_eq, pairR_eq]
  after_results_simp
  rw [h1, h3, pairK_pairR]
  rfl

/-! ## The reference's first eighteen lines -/

section Ref
open Cert.ReferenceIdeal Cert.ReferenceIdeal.Gen

set_option maxHeartbeats 80000000 in
/-- After its first eighteen lines the reference's score buffer holds its fourth stage of the two float arguments, -/
theorem ref_scores (M : Valuation τ sig (Elt Ideal)) :
    after (List.take 18 (Cert.ReferenceIdeal.ValueP.ops (F := Ideal))) M (Proc.devRef .tc main_v4)
      = Cert.ReferenceIdeal.ReadP.val_main_v4 (F := Ideal) (M (Proc.devRef .tc main_arg0)) (M (Proc.devRef .tc main_arg2)) := by
  simp only [Cert.ReferenceIdeal.ValueP.ops, List.take_succ_cons, List.take_zero]
  after_results_simp
  rfl

set_option maxHeartbeats 80000000 in
/-- the token-id buffer the launched ids reshaped to one row, -/
theorem ref_ids (M : Valuation τ sig (Elt Ideal)) :
    after (List.take 18 (Cert.ReferenceIdeal.ValueP.ops (F := Ideal))) M (Proc.devRef .tc main_v1)
      = shapeCast _ (M (Proc.devRef .tc main_arg1)) Cert.ReferenceIdeal.Facts₀.shapeCasts_S4x4096_S16384 := by
  simp only [Cert.ReferenceIdeal.ValueP.ops, List.take_succ_cons, List.take_zero]
  after_results_simp
  rfl

set_option maxHeartbeats 80000000 in
/-- and the hash table is untouched. -/
theorem ref_table (M : Valuation τ sig (Elt Ideal)) :
    after (List.take 18 (Cert.ReferenceIdeal.ValueP.ops (F := Ideal))) M (Proc.devRef .tc main_arg3) = M (Proc.devRef .tc main_arg3) := by
  simp only [Cert.ReferenceIdeal.ValueP.ops, List.take_succ_cons, List.take_zero]
  after_results_simp

/-- The reference's fold, cut after the eighteenth line. -/
theorem ref_cut (M : Valuation τ sig (Elt Ideal)) :
    after (Cert.ReferenceIdeal.ValueP.ops (F := Ideal)) M
      = after (List.drop 18 (Cert.ReferenceIdeal.ValueP.ops (F := Ideal))) (after (List.take 18 (Cert.ReferenceIdeal.ValueP.ops (F := Ideal))) M) := by
  rw [← StableHlo.after_append, List.take_append_drop]

end Ref

/-! ## The kernel's program reaches the later lines with the same three buffers -/

section Ker
open Cert.KernelIdeal Cert.KernelIdeal.Gen Cert.KernelIdeal.Frm Cert.KernelIdeal.Val

variable (m : (ℓ : Loc nD τ sig) → Buf (Elt Ideal) ℓ)

/-- The token ids as the region finds them: the launched ids reshaped to one row. -/
theorem V_main_v1 (c : Dev nD) : (V m c main_v1 : S16384.Idx → BitVec 32)
    = shapeCast _ (m ((c : Thread nD τ).loc main_arg1)) shapeCasts_S4x4096_S16384 := by
  show StableHlo.after hostOps0 (fun b => m (c, b)) (Proc.devRef .tc main_v1) = _
  after_results
  rfl

/-- The hidden states as the region finds them: the launched hidden states reshaped to 16384 rows. -/
theorem hid_eq (c : Dev nD) : hid m c = shapeCast _ (m ((c : Thread nD τ).loc main_arg0)) shapeCasts_S4x4096x2048_S16384x2048 := by
  show StableHlo.after hostOps0 (fun b => m (c, b)) (Proc.devRef .tc main_v0) = _
  after_results
  rfl

/-- What the later lines start from in the kernel's program: the region's arrays at their final contents, every other
    buffer as the region found it. -/
def W (c : Dev nD) : Valuation τ sig (Elt Ideal) :=
  Pipeline.withArrays spec0 c (V0 m c) fun w => (dats m 0 c).arrAt w cfg0.N

/-- There the score array is the specification's, -/
theorem W_scores (c : Dev nD) : W m c (Proc.devRef .tc main_v3) = G m c :=
  (Pipeline.withArrays_arr spec0 launch0.win.arr_inj c _ _ 2).trans (final m c)
/-- the token ids are the launched ids reshaped, -/
theorem W_ids (c : Dev nD) : W m c (Proc.devRef .tc main_v1) = shapeCast _ (m ((c : Thread nD τ).loc main_arg1)) shapeCasts_S4x4096_S16384 :=
  (Pipeline.withArrays_of_ne _ c (V0 m c) _ main_v1 (by decide)).trans (V_main_v1 m c)
/-- and the hash table is as launched. -/
theorem W_table (c : Dev nD) : W m c (Proc.devRef .tc main_arg3) = m ((c : Thread nD τ).loc main_arg3) :=
  (Pipeline.withArrays_of_ne _ c (V0 m c) _ main_arg3 (by decide)).trans (V_main_arg3 m c)

/-- The specification's score array is the reference's fourth stage of the launched hidden states and weight. -/
theorem G_ref (c : Dev nD) : G m c = Cert.ReferenceIdeal.ReadP.val_main_v4 (F := Ideal)
    (m ((c : Thread nD τ).loc main_arg0)) (m ((c : Thread nD τ).loc main_arg2)) := by
  unfold G
  rw [hid_eq]
  exact (Cert.ReferenceIdeal.RefScores.scores_eq _ _).symm

end Ker

/-! ## The two results -/

section Results
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the four arguments, the kernel's program's probabilities after its later lines are the
    reference's fold at its probabilities buffer. -/
theorem probs_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Pipeline.afterTail₀ Cert.KernelIdeal.cfgs (Cert.KernelIdeal.Frm.dats m) 0 (Cert.KernelIdeal.Frm.V0 m) Cert.KernelIdeal.Frm.tailOps c Cert.KernelIdeal.main_v36
      = after (Cert.ReferenceIdeal.ValueP.ops (F := Ideal)) (launchContents m' c) (Proc.devRef .tc Cert.ReferenceIdeal.main_v37) := by
  rw [ref_cut]
  refine tails_probs (W m c) _ ?_ ?_ ?_
  · rw [W_scores, G_ref, ref_scores, ← e0, ← e2]
  · rw [W_ids, ref_ids, ← e1]
  · rw [W_table, ref_table]
    exact e3.symm

/-- The same for the routing map. -/
theorem map_eq (c : Dev Cert.KernelIdeal.nD)
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Pipeline.afterTail₀ Cert.KernelIdeal.cfgs (Cert.KernelIdeal.Frm.dats m) 0 (Cert.KernelIdeal.Frm.V0 m) Cert.KernelIdeal.Frm.tailOps c Cert.KernelIdeal.main_v53
      = after (Cert.ReferenceIdeal.ValueP.ops (F := Ideal)) (launchContents m' c) (Proc.devRef .tc Cert.ReferenceIdeal.main_v54) := by
  rw [ref_cut]
  refine tails_map (W m c) _ ?_ ?_
  · rw [W_ids, ref_ids, ← e1]
  · rw [W_table, ref_table]
    exact e3.symm

end Results

end Cert.Bridge

end
-- ==== Proof.RefRunH.lean ====
/-
  The reference program, run: a straight line of 107 host operations. Every weakly fair execution terminates, each
  buffer ends at the fold of the operations' results over the launch contents, and no operation writes an argument.
  The two results are left as that fold, unevaluated: what they compute is read off it where it is needed.
-/
import proofs.«112636_j73813307949707_1_alg».proof.Proof.RefRun
import Idealize.ShloMosaic.Lib.StableHlo.Run

noncomputable section

namespace Cert.ReferenceIdeal.RunH

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 40000000 in
/-- From any memory with zero counters the reference terminates; its two results are the fold of its operations over
    the launch contents, read at the result buffers, and its four arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = after (ops (F := F)) (launchContents m c) (Proc.devRef .tc main_v37)
      ∧ r.2.mem ((c.tc : Thread nD τ).loc main_v54) = after (ops (F := F)) (launchContents m c) (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v37, h c main_v54,
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunH

end
-- ==== Proof.lean ====
/-
  A hash router for a mixture of experts: a Pallas kernel against its jnp reference, over the extended reals.

  Both programs score every token against every expert, `score (n, e) = sqrt (softplus (∑ k, hidden (n, k) * weight (e, k)))`,
  and then do the same thing with the scores: look up each token's eight experts in a hash table, gather the token's
  eight scores, renormalise them by their clipped sum, scale, and scatter the weights (and a map of which experts were
  chosen) into dense arrays. They differ only in how the scores are made. The reference contracts the reshaped hidden
  states with the weight along the weight's second axis, in one host operation, and applies softplus and the square root
  as host operations. The kernel transposes the weight on the host and runs a region of sixteen grid points, each taking
  1024 rows of the hidden states and the whole transposed weight, narrowing both to a 16-bit format, multiplying them into
  a zero accumulator, and applying the same softplus and square root entry by entry.

  On the extended reals a change of float format is the identity, a product into a zero accumulator and the host's
  contraction are the same finite sum `∑ k, hidden (n, k) * weight (e, k)` (the transpose only renames the summed
  position), there is no NaN for either program's guard to catch, and the two spellings of `-|x|` (`0 - |x|` and the
  negation of `|x|`) agree. So the sixteen blocks the kernel writes are the sixteen row blocks of the reference's score
  array, and the later host lines, being the same lines applied to the same three arrays, give the same two results. No
  algebraic law that could fail at an infinity is used, so the precondition (finite inputs) is never opened.

  The three frames: each program runs to the end without a fault and leaves its four argument arrays as launched — for
  the kernel's program (at the word level and idealized) because the region's body only loads its input blocks and stores
  its output block, and no host line writes an argument; for the reference because it is a straight line of host
  operations none of which writes an argument. The idealization rewrote nothing, so `preserves` has nothing to state.
-/
import proofs.«112636_j73813307949707_1_alg».proof.Defs
import proofs.«112636_j73813307949707_1_alg».proof.Proof.Gen.Kernel
import proofs.«112636_j73813307949707_1_alg».proof.Proof.Gen.KernelIdeal
import proofs.«112636_j73813307949707_1_alg».proof.Proof.Gen.ReferenceIdeal
import proofs.«112636_j73813307949707_1_alg».proof.Proof.Gen.Pre_finite_inputs
import proofs.«112636_j73813307949707_1_alg».proof.Proof.FrameKernel
import proofs.«112636_j73813307949707_1_alg».proof.Proof.FrameKernelIdeal
import proofs.«112636_j73813307949707_1_alg».proof.Proof.Bridge
import proofs.«112636_j73813307949707_1_alg».proof.Proof.RefRunH

noncomputable section

namespace Cert.Proof

open Idealize.ShloMosaic Idealize.ShloMosaic.TcCoe Idealize.SL.Sem

/-- The word-level kernel program runs, and its argument arrays end unchanged. -/
theorem frame_k : Cert.frame_Kernel := fun m ρ _ => Cert.Kernel.Frm.frame m ρ

/-- The idealized kernel program runs, and its argument arrays end unchanged. -/
theorem frame_ki : Cert.frame_KernelIdeal := fun m ρ _ => Cert.KernelIdeal.Frm.frame m ρ

/-- The reference runs, and its argument arrays end unchanged: its run with the two results dropped. -/
theorem frame_ri : Cert.frame_ReferenceIdeal := fun m ρ _ =>
  (θ_run Cert.ReferenceIdeal.defs _ _).mono (fun _ h c => (h c).2.2) (Cert.ReferenceIdeal.RunH.run (F := Ideal) m ρ)

/-- The idealization rewrote no operation. -/
theorem preserves : Cert.preserves_Kernel_KernelIdeal := trivial

/-- From memories that agree on the four arguments, both programs end with the same probabilities and the same routing
    map. The common values are the reference's: the fold of its 107 lines over its launch contents, read at its two result
    buffers. The reference ends there by its run; the kernel's program ends there because its later lines are the
    reference's last eighty-nine and start from the same score array, token ids and hash table. -/
theorem algebraic : Cert.algebraic_KernelIdeal_ReferenceIdeal := by
  intro m ρ m' ρ' _ hagree
  refine ⟨fun c => StableHlo.after (Cert.ReferenceIdeal.ValueP.ops (F := Ideal)) (StableHlo.launchContents m' c) (Proc.devRef .tc Cert.ReferenceIdeal.main_v37),
    fun c => StableHlo.after (Cert.ReferenceIdeal.ValueP.ops (F := Ideal)) (StableHlo.launchContents m' c) (Proc.devRef .tc Cert.ReferenceIdeal.main_v54), ?_,
    Cert.ReferenceIdeal.RunH.run (F := Ideal) m' ρ'⟩
  refine (θ_run Cert.KernelIdeal.defs _ _).mono (fun _ h c => ?_) (Cert.KernelIdeal.Frm.run_main m ρ)
  obtain ⟨e0, e1, e2, e3⟩ := hagree c
  exact ⟨((h c).2 Cert.KernelIdeal.main_v36 (Pipeline.mem_restRefs_of Cert.KernelIdeal.main_v36 (by decide) (by decide))).trans (Cert.Bridge.probs_eq m m' c e0 e1 e2 e3),
    ((h c).2 Cert.KernelIdeal.main_v53 (Pipeline.mem_restRefs_of Cert.KernelIdeal.main_v53 (by decide) (by decide))).trans (Cert.Bridge.map_eq m m' c e1 e3),
    ((h c).2 Cert.KernelIdeal.main_arg0 (Pipeline.mem_restRefs_of Cert.KernelIdeal.main_arg0 (by decide) (by decide))).trans (Cert.KernelIdeal.Frm.W_main_arg0 m (Cert.KernelIdeal.Frm.dats m) c),
    ((h c).2 Cert.KernelIdeal.main_arg1 (Pipeline.mem_restRefs_of Cert.KernelIdeal.main_arg1 (by decide) (by decide))).trans (Cert.KernelIdeal.Frm.W_main_arg1 m (Cert.KernelIdeal.Frm.dats m) c),
    ((h c).2 Cert.KernelIdeal.main_arg2 (Pipeline.mem_restRefs_of Cert.KernelIdeal.main_arg2 (by decide) (by decide))).trans (Cert.KernelIdeal.Frm.W_main_arg2 m (Cert.KernelIdeal.Frm.dats m) c),
    ((h c).2 Cert.KernelIdeal.main_arg3 (Pipeline.mem_restRefs_of Cert.KernelIdeal.main_arg3 (by decide) (by decide))).trans (Cert.KernelIdeal.Frm.W_main_arg3 m (Cert.KernelIdeal.Frm.dats m) c)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
